-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128x16 : Shape := ⟨3, ![16384, 128, 16]⟩
abbrev S1024x128 : Shape := ⟨2, ![1024, 128]⟩
abbrev S16384 : Shape := ⟨1, ![16384]⟩
abbrev S_ : Shape := ⟨0, ![]⟩

class Facts : Prop where
  bcast_S_S16384x128x16 : S_.BroadcastsInDim S16384x128x16 (![] : Fin 0 → Fin S16384x128x16.rank)
  reducesTo_S16384x128x16_S_d0_1_2 : S16384x128x16.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn {F : FTy → Type} [FloatOps F] (main_arg0 : FVec F S16384x128x16 .f32) (main_arg1 : FVec F S1024x128 .f32) (main_arg2 : IVec S16384 32) : IVec S_ 1 :=
  let main_v0 : FVec F S16384x128x16 .f32 := Host.absf main_arg0
  let main_cst : FVec F S_ .f32 := constant S_ .f32 0x7F800000#32
  let main_v1 : FVec F S16384x128x16 .f32 := broadcastInDim S16384x128x16 ![] bcast_S_S16384x128x16 main_cst
  let main_v2 : IVec S16384x128x16 1 := cmpf .olt main_v0 main_v1
  let main_c : IVec S_ 1 := constantI S_ 1 1#1
  let main_v3 : IVec S_ 1 := (fun x v => Host.reduce IntOp.andi x v reducesTo_S16384x128x16_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  main_v8
-- ==== Kernel.lean ====
abbrev S16384x128x16 : Shape := ⟨3, ![16384, 128, 16]⟩
abbrev S1024x128 : Shape := ⟨2, ![1024, 128]⟩
abbrev S16384 : Shape := ⟨1, ![16384]⟩
abbrev S_ : Shape := ⟨0, ![]⟩
abbrev S16384x1 : Shape := ⟨2, ![16384, 1]⟩
abbrev S16384x128 : Shape := ⟨2, ![16384, 128]⟩
abbrev S16384x2048 : Shape := ⟨2, ![16384, 2048]⟩
abbrev S1024x2048 : Shape := ⟨2, ![1024, 2048]⟩
abbrev S1024x128x1 : Shape := ⟨3, ![1024, 128, 1]⟩
abbrev S1024x128x16 : Shape := ⟨3, ![1024, 128, 16]⟩

abbrev nBuf : Space → Nat
  | .hbm => 15
  | .vmem => 6
  | .smem => 0
  | _ => 0

abbrev bufTy : (tb : Table) → Fin (tcTables nBuf tb) → BufTy
  | .hbm, ⟨0, _⟩ => ⟨S16384x128x16, .f32⟩
  | .hbm, ⟨1, _⟩ => ⟨S1024x128, .f32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S16384x128, .f32⟩
  | .hbm, ⟨12, _⟩ => ⟨S16384x2048, .f32⟩
  | .hbm, ⟨13, _⟩ => ⟨S16384x2048, .f32⟩
  | .hbm, ⟨14, _⟩ => ⟨S16384x128x16, .f32⟩
  | .local _ .vmem, ⟨0, _⟩ => ⟨S1024x128, .f32⟩
  | .local _ .vmem, ⟨1, _⟩ => ⟨S1024x128, .f32⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | _, _ => ⟨S16384x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x128x16_S16384x2048 : S16384x128x16.ShapeCasts S16384x2048
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S1024x128_S1024x128x1 : S1024x128.ShapeCasts S1024x128x1
  shapeCasts_S1024x128x1_S1024x128x1 : S1024x128x1.ShapeCasts S1024x128x1
  broadcasts_S1024x128x1_S1024x128x16 : S1024x128x1.Broadcasts S1024x128x16
  shapeCasts_S1024x128x16_S1024x2048 : S1024x128x16.ShapeCasts S1024x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S16384x2048_S16384x128x16 : S16384x2048.ShapeCasts S16384x128x16
  gather_S1024x128_S16384x1_S16384x128_1_0_n_n_0_1_1128_wf : GatherDims.WF S1024x128 S16384x1 S16384x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x2048.size a
  hwx0_1 : ∀ i : grid0.Coords, EltTy.bits .f32 = 32 ∨ (Rect.block (s := S16384x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S16384x2048.size a
  hwx0_2 : ∀ i : grid0.Coords, EltTy.bits .f32 = 32 ∨ (Rect.block (s := S16384x2048) S1024x2048.size (cc0_transform_2 i) (hinb0_2 i)).WholeWords (EltTy.packing .f32)

variable [Facts₀]

def gather_S1024x128_S16384x1_S16384x128_1_0_n_n_0_1_1128 : GatherDims S1024x128 S16384x1 S16384x128 where
  offsetDims := [1]
  collapsedSliceDims := [0]
  operandBatchingDims := []
  startIndicesBatchingDims := []
  startIndexMap := [0]
  indexVectorDim := 1
  sliceSizes := ![1, 128]
  wf := gather_S1024x128_S16384x1_S16384x128_1_0_n_n_0_1_1128_wf

abbrev win0_0 : Pipeline.Window sig grid0 :=
  Pipeline.Window.ofSpec (Memref.whole main_v6) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128x16 : Shape := ⟨3, ![16384, 128, 16]⟩
abbrev S1024x128 : Shape := ⟨2, ![1024, 128]⟩
abbrev S16384 : Shape := ⟨1, ![16384]⟩
abbrev S_ : Shape := ⟨0, ![]⟩
abbrev S16384x1 : Shape := ⟨2, ![16384, 1]⟩
abbrev S16384x128 : Shape := ⟨2, ![16384, 128]⟩
abbrev S16384x128x1 : Shape := ⟨3, ![16384, 128, 1]⟩

abbrev nBuf : Space → Nat
  | .hbm => 15
  | .vmem => 0
  | .smem => 0
  | _ => 0

abbrev bufTy : (tb : Table) → Fin (tcTables nBuf tb) → BufTy
  | .hbm, ⟨0, _⟩ => ⟨S16384x128x16, .f32⟩
  | .hbm, ⟨1, _⟩ => ⟨S1024x128, .f32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S16384x128, .f32⟩
  | .hbm, ⟨12, _⟩ => ⟨S16384x128x1, .f32⟩
  | .hbm, ⟨13, _⟩ => ⟨S16384x128x16, .f32⟩
  | .hbm, ⟨14, _⟩ => ⟨S16384x128x16, .f32⟩
  | _, _ => ⟨S16384x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S16384x128_S16384x128x1_0_1 : S16384x128.BroadcastsInDim S16384x128x1 (![0, 1] : Fin 2 → Fin S16384x128x1.rank)
  bcast_S16384x128x1_S16384x128x16_0_1_2 : S16384x128x1.BroadcastsInDim S16384x128x16 (![0, 1, 2] : Fin 3 → Fin S16384x128x16.rank)
  gather_S1024x128_S16384x1_S16384x128_1_0_n_n_0_1_1128_wf : GatherDims.WF S1024x128 S16384x1 S16384x128 [1] [0] [] [0] [] 1 ![1, 128]

variable [Facts₀]

def gather_S1024x128_S16384x1_S16384x128_1_0_n_n_0_1_1128 : GatherDims S1024x128 S16384x1 S16384x128 where
  offsetDims := [1]
  collapsedSliceDims := [0]
  operandBatchingDims := []
  startIndicesBatchingDims := []
  startIndexMap := [0]
  indexVectorDim := 1
  sliceSizes := ![1, 128]
  wf := gather_S1024x128_S16384x1_S16384x128_1_0_n_n_0_1_1128_wf

class Facts : Prop extends Facts₀ where

variable [Facts]
-- ==== Proof.LibRowExpand.lean ====
/-
  A matrix repeated along a new trailing axis and flattened, read at an index written by coordinates.

  A matrix `[a, b]` viewed as `[a, b, 1]`; an array `[a, b, 1]` repeated along its unit axis to `[a, b, c]`; an array
  `[a, b, c]` with its last two axes folded into one of extent `w = b * c` (entry `(i, j, k)` lands in column
  `j * c + k`), and the same fold undone; and the three composed: every entry `(i, j * c + k)` of the expanded
  matrix is entry `(i, j)` of the matrix it was made from. Each holds for any element type and any extents.
-/
import Idealize.ShloMosaic.Lib.Pipeline.Value
import Idealize.ShloMosaic.Lib.ValueIdx

namespace Cert.LibRowExpand

open Idealize.ShloMosaic Idealize.ShloMosaic.ValueIdx

variable {α : Type}

/-- A matrix `[a, b]` cast to `[a, b, 1]` reads, at `(i, j, u)`, the matrix at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An array `[a, b, 1]` repeated along its last axis to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An array `[a, b, c]` with its last two axes folded into one of extent `w = b * c`: column `q = j * c + k` of row `i`
    is entry `(i, j, k)`. -/
theorem shapeCast_abc_aw_apply {a b c w : ℕ} (x : (⟨3, ![a, b, c]⟩ : Shape).Idx → α)
    (h : (⟨3, ![a, b, c]⟩ : Shape).ShapeCasts ⟨2, ![a, w]⟩) (hw : w = b * c)
    (i : Fin a) (j : Fin b) (k : Fin c) (q : Fin w) (hq : q.val = j.val * c + k.val) :
    shapeCast ⟨2, ![a, w]⟩ x h (ix2 i q) = x (ix3 i j k) :=
  shapeCast_apply x h _ _ (by
    rw [Shape.rowMajor_val_three, Shape.rowMajor_val_two]
    show (i.val * b + j.val) * c + k.val = i.val * w + q.val
    rw [hq, hw, Nat.add_mul, Nat.mul_assoc, Nat.add_assoc])

/-- The fold undone: a matrix `[a, w]` with `w = b * c` cast to `[a, b, c]` reads, at `(i, j, k)`, column `j * c + k` of
    row `i`. -/
theorem shapeCast_aw_abc_apply {a b c w : ℕ} (x : (⟨2, ![a, w]⟩ : Shape).Idx → α)
    (h : (⟨2, ![a, w]⟩ : Shape).ShapeCasts ⟨3, ![a, b, c]⟩) (hw : w = b * c)
    (i : Fin a) (j : Fin b) (k : Fin c) (q : Fin w) (hq : q.val = j.val * c + k.val) :
    shapeCast ⟨3, ![a, b, c]⟩ x h (ix3 i j k) = x (ix2 i q) :=
  shapeCast_apply x h _ _ (by
    rw [Shape.rowMajor_val_three, Shape.rowMajor_val_two]
    show i.val * w + q.val = (i.val * b + j.val) * c + k.val
    rw [hq, hw, Nat.add_mul, Nat.mul_assoc, Nat.add_assoc])

/-- A matrix `[a, b]` expanded to `[a, b * c]` by repeating each entry `c` times along its row (viewed `[a, b, 1]`,
    repeated to `[a, b, c]`, folded to `[a, w]`; the two casts to the same shape in between change nothing): entry
    `(i, j * c + k)` of the expansion is entry `(i, j)` of the matrix. -/
theorem expand_cols_apply {a b c w : ℕ} (v : (⟨2, ![a, b]⟩ : Shape).Idx → α)
    (h0 : (⟨2, ![a, b]⟩ : Shape).ShapeCasts ⟨2, ![a, b]⟩)
    (h1 : (⟨2, ![a, b]⟩ : Shape).ShapeCasts ⟨3, ![a, b, 1]⟩)
    (h2 : (⟨3, ![a, b, 1]⟩ : Shape).ShapeCasts ⟨3, ![a, b, 1]⟩)
    (h3 : (⟨3, ![a, b, 1]⟩ : Shape).Broadcasts ⟨3, ![a, b, c]⟩)
    (h4 : (⟨3, ![a, b, c]⟩ : Shape).ShapeCasts ⟨2, ![a, w]⟩) (hw : w = b * c)
    (i : Fin a) (j : Fin b) (k : Fin c) (q : Fin w) (hq : q.val = j.val * c + k.val) :
    shapeCast ⟨2, ![a, w]⟩ (broadcastTo ⟨3, ![a, b, c]⟩ (shapeCast ⟨3, ![a, b, 1]⟩ (shapeCast ⟨3, ![a, b, 1]⟩
      (shapeCast ⟨2, ![a, b]⟩ v h0) h1) h2) h3) h4 (ix2 i q) = v (ix2 i j) :=
  (shapeCast_abc_aw_apply _ h4 hw i j k q hq).trans <|
    (broadcastTo_ab1_abc_apply _ h3 i j k).trans <|
      (congrFun (shapeCast_self _ h2) _).trans <|
        (shapeCast_ab_ab1_apply _ h1 i j 0).trans <|
          congrFun (shapeCast_self v h0) _

end Cert.LibRowExpand
-- ==== Proof.KernelBody.lean ====
/-
  What the kernel body stores, read at an index. The body loads a `[1024, 128]` block of weights and a `[1024, 2048]`
  block of flattened slabs, expands the weights to `[1024, 2048]` by repeating each one 16 times along its row, and
  stores the entrywise product: entry `(r, 16 d + b)` of what it stores is `w[r, d] * x[r, 16 d + b]`.
-/
import proofs.«135304_j59502476919112_2_alg».proof.Proof.Gen.KernelIdeal.Skeleton
import proofs.«135304_j59502476919112_2_alg».proof.Proof.LibRowExpand
import Idealize.ShloMosaic.Lib.ValueIdx

noncomputable section

namespace Cert.KernelIdeal.Body

open Cert.KernelIdeal Cert.KernelIdeal.Gen Idealize.ShloMosaic Idealize.ShloMosaic.ValueIdx

/-- The stored product at `(r, q)` with `q = 16 d + b`: the weight of row `r` and channel `d` times the loaded entry. -/
theorem stored_apply (v0 : Vec Ideal S1024x128 .f32) (v6 : Vec Ideal S1024x2048 .f32)
    (r : Fin 1024) (d : Fin 128) (b : Fin 16) (q : Fin 2048) (hq : q.val = d.val * 16 + b.val) :
    k0_pay1 (F := Ideal) v0 v6 (ix2 r q) = v0 (ix2 r d) * v6 (ix2 r q) := by
  unfold k0_pay1
  show (shapeCast S1024x2048 (broadcastTo S1024x128x16 (shapeCast S1024x128x1 (shapeCast S1024x128x1
      (shapeCast S1024x128 v0 shapeCasts_S1024x128_S1024x128) shapeCasts_S1024x128_S1024x128x1)
      shapeCasts_S1024x128x1_S1024x128x1) broadcasts_S1024x128x1_S1024x128x16) shapeCasts_S1024x128x16_S1024x2048) (ix2 r q)
    * (shapeCast S1024x2048 v6 shapeCasts_S1024x2048_S1024x2048) (ix2 r q) = _
  exact congrArg₂ (· * ·)
    (LibRowExpand.expand_cols_apply v0 shapeCasts_S1024x128_S1024x128 shapeCasts_S1024x128_S1024x128x1
      shapeCasts_S1024x128x1_S1024x128x1 broadcasts_S1024x128x1_S1024x128x16 shapeCasts_S1024x128x16_S1024x2048 rfl r d b q hq)
    (congrFun (shapeCast_self v6 shapeCasts_S1024x2048_S1024x2048) _)

end Cert.KernelIdeal.Body

end
-- ==== Proof.Spec.lean ====
/-
  The function both programs compute, on the extended reals: every entry of a rank-3 array `x : [16384, 128, 16]`
  is multiplied by the weight of its row and channel, `out[n, d, b] = w[n, d] * x[n, d, b]` — the product of the
  diagonal matrix `diag(w[n, ·])` with the `[128, 16]` slab `x[n, ·, ·]`.

  The kernel works on the slabs flattened to rows of length `2048 = 128 * 16`: there the same function reads
  `out[n, q] = w[n, q / 16] * x[n, q]`, and folding a row back into a slab turns one form into the other. No law of
  arithmetic is used beyond the two sides being the same product, so no finiteness is needed.
-/
import Idealize.ShloMosaic.PureOps.Ideal
import Idealize.ShloMosaic.Lib.ValueIdx
import proofs.«135304_j59502476919112_2_alg».proof.Proof.LibRowExpand

noncomputable section

namespace Cert.RowScale

open Idealize.ShloMosaic Idealize.ShloMosaic.ValueIdx

/-- The weights, one per row and channel. -/
abbrev WShape : Shape := ⟨2, ![16384, 128]⟩
/-- The slabs. -/
abbrev XShape : Shape := ⟨3, ![16384, 128, 16]⟩
/-- The slabs flattened to rows. -/
abbrev FShape : Shape := ⟨2, ![16384, 2048]⟩

/-- `out[n, d, b] = w[n, d] * x[n, d, b]`. -/
def scaled (w : WShape.Idx → EReal) (x : XShape.Idx → EReal) : XShape.Idx → EReal :=
  fun i => w (ix2 (⟨(i 0).val, (i 0).isLt⟩ : Fin 16384) (⟨(i 1).val, (i 1).isLt⟩ : Fin 128)) * x i

/-- The same on flattened rows: `out[n, q] = w[n, q / 16] * x[n, q]`. -/
def scaledRows (w : WShape.Idx → EReal) (xf : FShape.Idx → EReal) : FShape.Idx → EReal :=
  fun j => w (ix2 (⟨(j 0).val, (j 0).isLt⟩ : Fin 16384)
    (⟨(j 1).val / 16, by have h : (j 1).val < 2048 := (j 1).isLt; omega⟩ : Fin 128)) * xf j

theorem scaled_apply (w : WShape.Idx → EReal) (x : XShape.Idx → EReal) (n : Fin 16384) (d : Fin 128) (b : Fin 16) :
    scaled w x (ix3 n d b) = w (ix2 n d) * x (ix3 n d b) := rfl

theorem scaledRows_apply (w : WShape.Idx → EReal) (xf : FShape.Idx → EReal) (n : Fin 16384) (d : Fin 128) (q : Fin 2048)
    (hd : d.val = q.val / 16) : scaledRows w xf (ix2 n q) = w (ix2 n d) * xf (ix2 n q) := by
  have e : (⟨q.val / 16, by have := q.isLt; omega⟩ : Fin 128) = d := Fin.ext hd.symm
  show w (ix2 n (⟨q.val / 16, _⟩ : Fin 128)) * xf (ix2 n q) = _
  rw [e]

/-- Folding the rows of the flattened result back into slabs gives the slab form, when the rows were the slabs
    flattened: entry `(n, d, b)` is column `q = 16 d + b` of row `n`, and `q / 16 = d`. -/
theorem unflatten_scaledRows (w : WShape.Idx → EReal) (x : XShape.Idx → EReal)
    (hf : XShape.ShapeCasts FShape) (hu : FShape.ShapeCasts XShape) :
    shapeCast XShape (scaledRows w (shapeCast FShape x hf)) hu = scaled w x := by
  funext i
  obtain ⟨n, d, b, rfl⟩ : ∃ (n : Fin 16384) (d : Fin 128) (b : Fin 16), i = ix3 n d b := ⟨i 0, i 1, i 2, eq_ix3 i⟩
  have hq : d.val * 16 + b.val < 2048 := by have := d.isLt; have := b.isLt; omega
  refine (LibRowExpand.shapeCast_aw_abc_apply _ hu rfl n d b ⟨d.val * 16 + b.val, hq⟩ rfl).trans ?_
  refine (scaledRows_apply w _ n d ⟨d.val * 16 + b.val, hq⟩ (by show d.val = (d.val * 16 + b.val) / 16; have := b.isLt; omega)).trans ?_
  rw [scaled_apply]
  exact congrArg (w (ix2 n d) * ·) (LibRowExpand.shapeCast_abc_aw_apply x hf rfl n d b ⟨d.val * 16 + b.val, hq⟩ rfl)

end Cert.RowScale

end
-- ==== Proof.KernelValue.lean ====
/-
  The kernel's result as one function of the argument arrays.

  Before the region the host gathers one weight row per position (`w : [16384, 128]`, carried here as one array and
  never opened) and flattens each `[128, 16]` slab of the input to a row of length 2048. Grid point `t` of the region
  works on rows `1024 t … 1024 t + 1023`: its weight block and its row block are those rows of the two arrays, and it
  writes back the product of the row block with the weights repeated 16 times along each row. The 16 blocks tile the
  `[16384, 2048]` result, which therefore holds `w[n, q / 16] * x[n, q]` everywhere; the host then folds each row back
  into a slab, which gives `w[n, d] * x[n, d, b]`.
-/
import proofs.«135304_j59502476919112_2_alg».proof.Proof.Gen.KernelIdeal.Frame
import proofs.«135304_j59502476919112_2_alg».proof.Proof.KernelBody
import proofs.«135304_j59502476919112_2_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.RowValue

open Cert.KernelIdeal Cert.KernelIdeal.Gen Idealize.ShloMosaic.ValueIdx Cert.RowScale

variable (m : (ℓ : Loc nD τ sig) → Buf (Elt Ideal) ℓ) (ρ : Dev nD → PrngReg)

theorem hz : (![0, 0] : Fin 2 → Nat) = fun _ => 0 := funext fun a => by fin_cases a <;> rfl

/-- The gathered weights as a function of the weight table and the positions' indices: the host operations before the
    region, composed. -/
def gathered (x1 : (⟨S1024x128, .f32⟩ : BufTy).Contents (Elt Ideal)) (x2 : (⟨S16384, .i32⟩ : BufTy).Contents (Elt Ideal)) :
    (⟨S16384x128, .f32⟩ : BufTy).Contents (Elt Ideal) :=
  Host.gather gather_S1024x128_S16384x1_S16384x128_1_0_n_n_0_1_1128 x1
    (broadcastInDim S16384x1 ![0] bcast_S16384_S16384x1_0
      (select (cmpi .slt x2 (broadcastInDim S16384 ![] bcast_S_S16384 (constantI S_ 32 0#32)))
        (addi x2 (broadcastInDim S16384 ![] bcast_S_S16384 (constantI S_ 32 1024#32))) x2))

/-- The region finds the gathered weights in its first operand's array … -/
theorem V_weights (c : Dev nD) :
    V m c main_v6 = gathered (m ((c : Thread nD τ).loc main_arg1)) (m ((c : Thread nD τ).loc main_arg2)) := by
  show StableHlo.after hostOps0 (fun b => m (c, b)) (Proc.devRef .tc main_v6) = _
  after_results
  rfl

/-- … and the input with every slab flattened to a row in its second. -/
theorem V_rows (c : Dev nD) :
    V m c main_v7 = shapeCast S16384x2048 (m ((c : Thread nD τ).loc main_arg0)) shapeCasts_S16384x128x16_S16384x2048 := by
  show StableHlo.after hostOps0 (fun b => m (c, b)) (Proc.devRef .tc main_v7) = _
  after_results
  rfl

/-- The printed index maps, decided over the 16 grid points: every window's block index is `(t, 0)`. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 15 :=
  (by decide +kernel : ∀ t : Fin grid0.N, _)

/-- Every block of rows is some point's. -/
theorem idx_onto : ∀ q0 : Fin 16, ∃ t : Fin cfg0.N, win0_2.index t = ![q0.val, 0] :=
  (by decide +kernel : ∀ q0 : Fin 16, ∃ t : Fin grid0.N, win0_2.index t = ![q0.val, 0])

/-- The weight block at point `t` is rows `1024 t …` of the gathered weights. -/
theorem weight_block_apply (c : Dev nD) (t : Fin cfg0.N) (r : Fin 1024) (d : Fin 128)
    (hT : win0_2.index t (0 : Fin 2) * 1024 + r.val < 16384) :
    (iblk m c 0 t : Vec Ideal S1024x128 .f32) (ix2 r d)
      = (V m c main_v6 : S16384x128.Idx → EReal) (ix2 (⟨win0_2.index t (0 : Fin 2) * 1024 + r.val, hT⟩ : Fin 16384) d) := by
  obtain ⟨e0, e1, e2, e3, e4, e5⟩ := idx_facts t
  show V m c main_v6 (((cfg0.win 0).blk t).view.emb (ix2 r d)) = _
  refine congrArg (V m c main_v6) (funext fun a => Fin.ext ?_)
  match a with
  | ⟨0, _⟩ => show win0_0.index t (0 : Fin 2) * 1024 + 1 * r.val = win0_2.index t (0 : Fin 2) * 1024 + r.val; omega
  | ⟨1, _⟩ => show win0_0.index t (1 : Fin 2) * 128 + 1 * d.val = d.val; omega

/-- The row block at point `t` is rows `1024 t …` of the flattened input. -/
theorem row_block_apply (c : Dev nD) (t : Fin cfg0.N) (r : Fin 1024) (q : Fin 2048)
    (hT : win0_2.index t (0 : Fin 2) * 1024 + r.val < 16384) :
    (iblk m c 1 t : Vec Ideal S1024x2048 .f32) (ix2 r q)
      = (V m c main_v7 : S16384x2048.Idx → EReal) (ix2 (⟨win0_2.index t (0 : Fin 2) * 1024 + r.val, hT⟩ : Fin 16384) q) := by
  obtain ⟨e0, e1, e2, e3, e4, e5⟩ := idx_facts t
  show V m c main_v7 (((cfg0.win 1).blk t).view.emb (ix2 r q)) = _
  refine congrArg (V m c main_v7) (funext fun a => Fin.ext ?_)
  match a with
  | ⟨0, _⟩ => show win0_1.index t (0 : Fin 2) * 1024 + 1 * r.val = win0_2.index t (0 : Fin 2) * 1024 + r.val; omega
  | ⟨1, _⟩ => show win0_1.index t (1 : Fin 2) * 2048 + 1 * q.val = q.val; omega

/-- What point `t` writes back is its block of the row form of the function, of the two arrays the region finds. -/
theorem flushed_eq (c : Dev nD) (t : Fin cfg0.N) :
    (dats m 0 c).flushed 2 t
      = ((cfg0.win 2).blk t).view.read (Elt Ideal) (scaledRows (V m c main_v6) (V m c main_v7)) := by
  show (cfg0.win 2).cut (grid0.coords t) ((dats m 0 c).after 2 t) = _
  rw [after0_2]
  unfold out0_2
  rw [View.canon_unit_zero hz]
  simp only [View.ld_unit_zero (S := S1024x128) hz, View.ld_unit_zero (S := S1024x2048) hz]
  obtain ⟨e0, e1, e2, e3, e4, e5⟩ := idx_facts t
  refine funext fun (y : S1024x2048.Idx) => ?_
  obtain ⟨r, q, rfl⟩ : ∃ (r : Fin 1024) (q : Fin 2048), y = ix2 r q := ⟨y 0, y 1, eq_ix2 y⟩
  have hT : win0_2.index t (0 : Fin 2) * 1024 + r.val < 16384 := by have := r.isLt; omega
  have hd : q.val / 16 < 128 := by have := q.isLt; omega
  have hb : q.val % 16 < 16 := Nat.mod_lt _ (by decide)
  show k0_pay1 (F := Ideal) (iblk m c 0 t) (iblk m c 1 t) (ix2 r q)
    = scaledRows (V m c main_v6) (V m c main_v7) (((cfg0.win 2).blk t).view.emb (ix2 r q))
  refine (Body.stored_apply (iblk m c 0 t) (iblk m c 1 t) r ⟨q.val / 16, hd⟩ ⟨q.val % 16, hb⟩ q
    (by show q.val = q.val / 16 * 16 + q.val % 16; omega)).trans ?_
  rw [weight_block_apply m c t r ⟨q.val / 16, hd⟩ hT, row_block_apply m c t r q hT]
  have hemb : ((cfg0.win 2).blk t).view.emb (ix2 r q)
      = ix2 (⟨win0_2.index t (0 : Fin 2) * 1024 + r.val, hT⟩ : Fin 16384) q :=
    funext fun a => Fin.ext (by
      match a with
      | ⟨0, _⟩ => show win0_2.index t (0 : Fin 2) * 1024 + 1 * r.val = win0_2.index t (0 : Fin 2) * 1024 + r.val; omega
      | ⟨1, _⟩ => show win0_2.index t (1 : Fin 2) * 2048 + 1 * q.val = q.val; omega)
  rw [hemb]
  exact (scaledRows_apply _ _ _ ⟨q.val / 16, hd⟩ q rfl).symm

/-- An index of the result array is in point `t`'s block iff each coordinate is in the block's range on its axis. -/
theorem mem_blk (t : Fin cfg0.N) (i : S16384x2048.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v8).slice (win0_2.rect t)).set ↔ _
  rw [View.set_slice_whole, Rect.mem_set_unit]
  exact Iff.rfl

/-- Row `n` lies in the block of point `n / 1024`: the blocks cover the array. -/
theorem covered (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- The region's result array after the run: the row form of the function everywhere. -/
theorem final_rows (c : Dev nD) :
    (dats m 0 c).arrAt 2 cfg0.N = scaledRows (V m c main_v6) (V m c main_v7) :=
  (dats m 0 c).arrAt_eq_of_cover 2 (scaledRows (V m c main_v6) (V m c main_v7)) (fun t _ => flushed_eq m c t) covered

/-- The program's result: the host folds each row of the region's result back into a slab. -/
theorem result_eq (c : Dev nD) :
    Pipeline.afterTail₀ cfgs (dats m) 0 (V0 m) [hostOps1] c main_v9
      = scaled (gathered (m ((c : Thread nD τ).loc main_arg1)) (m ((c : Thread nD τ).loc main_arg2)))
          (m ((c : Thread nD τ).loc main_arg0)) := by
  unfold Pipeline.afterTail₀
  show StableHlo.after hostOps1 _ (Proc.devRef .tc main_v9) = _
  after_results
  show shapeCast S16384x128x16 (Pipeline.withArrays (cfgs 0).spec c (V0 m c) (fun w => (dats m 0 c).arrAt w (cfgs 0).N)
    (Proc.devRef .tc main_v8)) shapeCasts_S16384x2048_S16384x128x16 = _
  have hw : Pipeline.withArrays (cfgs 0).spec c (V0 m c) (fun w => (dats m 0 c).arrAt w (cfgs 0).N) (Proc.devRef .tc main_v8)
      = scaledRows (V m c main_v6) (V m c main_v7) :=
    (Pipeline.withArrays_arr spec0 launch0.win.arr_inj c _ _ 2).trans (final_rows m c)
  rw [hw, V_weights, V_rows]
  exact unflatten_scaledRows _ _ _ _

/-- The run, read: every weakly fair execution ends with the result at the slab form of the function of the argument
    arrays, and the arguments as launched. -/
theorem run : θ_run defs (onTc (τ := τ) (main (F := Ideal))) ⟨m, fun _ => 0, ρ⟩ fun r => ∀ c : Dev nD,
      r.2.mem ((c.tc : Thread nD τ).loc main_v9)
        = scaled (gathered (m ((c.tc : Thread nD τ).loc main_arg1)) (m ((c.tc : Thread nD τ).loc main_arg2)))
            (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RowValue

end
-- ==== Proof.RefValue.lean ====
/-
  The reference, read at an index, is the slab form of the function: it repeats the gathered weights `[16384, 128]`
  along a new last axis (first to extent 1, then to extent 16) and multiplies entrywise, so entry `(n, d, b)` is
  `w[n, d] * x[n, d, b]`. The gathered weights are carried as one array; the gather itself is never opened.
-/
import proofs.«135304_j59502476919112_2_alg».proof.Proof.Gen.ReferenceIdeal.Read
import proofs.«135304_j59502476919112_2_alg».proof.Proof.Spec

noncomputable section

namespace Cert.ReferenceIdeal.RefValue

open Cert.ReferenceIdeal Cert.ReferenceIdeal.Read Idealize.ShloMosaic Idealize.ShloMosaic.ValueIdx

/-- The reference's result is every slab scaled by its row's gathered weights. -/
theorem result_eq (x0 : (⟨S16384x128x16, .f32⟩ : BufTy).Contents (Elt Ideal)) (x1 : (⟨S1024x128, .f32⟩ : BufTy).Contents (Elt Ideal))
    (x2 : (⟨S16384, .i32⟩ : BufTy).Contents (Elt Ideal)) :
    val_main_v9 (F := Ideal) x0 x1 x2 = Cert.RowScale.scaled (val_main_v6 (F := Ideal) x1 x2) x0 := by
  funext i
  have e : idx_main_v7 (idx_main_v8 i) = ix2 (⟨(i 0).val, (i 0).isLt⟩ : Fin 16384) (⟨(i 1).val, (i 1).isLt⟩ : Fin 128) :=
    funext fun a => Fin.ext (by match a with | ⟨0, _⟩ => rfl | ⟨1, _⟩ => rfl)
  rw [val_main_v9_apply, val_main_v8_apply, val_main_v7_apply, e]
  rfl

end Cert.ReferenceIdeal.RefValue

end
-- ==== Proof.lean ====
/-
  The kernel multiplies every entry of a `[16384, 128, 16]` array by a weight chosen per position and channel:
  `out[n, d, b] = w[n, d] * x[n, d, b]`, where `w[n, ·]` is the row of a `[1024, 128]` weight table that the position's
  index selects — the product of the diagonal matrix `diag(w[n, ·])` with the slab `x[n, ·, ·]`. Both programs gather
  the weight rows on the host by the same operations, so the gathered weights enter as one array on each side. The
  reference repeats them along a new last axis and multiplies; the kernel flattens every slab to a row of 2048, repeats
  each weight 16 times along the row inside the body, multiplies 1024 rows per grid point, and folds the rows back.
  On the extended reals the two are the same product entry by entry (`q = 16 d + b` gives `q / 16 = d`): no law of
  arithmetic beyond that is used, and the finiteness of the inputs is never opened.

  The three frames are the generated ones (the reference's is its generated run with the result dropped). The idealized
  kernel is the kernel's own text read on the extended reals, so the idealization claim has no conjunct to prove. The
  value claim sets the kernel's run (KernelValue) beside the reference's generated run read at an index (RefValue), both
  stated at the one function of Spec.
-/
import proofs.«135304_j59502476919112_2_alg».proof.Defs
import proofs.«135304_j59502476919112_2_alg».proof.Proof.Gen.Kernel
import proofs.«135304_j59502476919112_2_alg».proof.Proof.Gen.Kernel.Skeleton
import proofs.«135304_j59502476919112_2_alg».proof.Proof.Gen.Kernel.Launch
import proofs.«135304_j59502476919112_2_alg».proof.Proof.Gen.Kernel.Points
import proofs.«135304_j59502476919112_2_alg».proof.Proof.Gen.Kernel.Frame
import proofs.«135304_j59502476919112_2_alg».proof.Proof.Gen.KernelIdeal
import proofs.«135304_j59502476919112_2_alg».proof.Proof.Gen.KernelIdeal.Skeleton
import proofs.«135304_j59502476919112_2_alg».proof.Proof.Gen.KernelIdeal.Launch
import proofs.«135304_j59502476919112_2_alg».proof.Proof.Gen.KernelIdeal.Points
import proofs.«135304_j59502476919112_2_alg».proof.Proof.Gen.KernelIdeal.Frame
import proofs.«135304_j59502476919112_2_alg».proof.Proof.Gen.ReferenceIdeal
import proofs.«135304_j59502476919112_2_alg».proof.Proof.Gen.Pre_finite_inputs
import proofs.«135304_j59502476919112_2_alg».proof.Proof.Gen.ReferenceIdeal.Run
import proofs.«135304_j59502476919112_2_alg».proof.Proof.Gen.ReferenceIdeal.Read
import proofs.«135304_j59502476919112_2_alg».proof.Proof.KernelValue
import proofs.«135304_j59502476919112_2_alg».proof.Proof.RefValue
import Idealize.ShloMosaic.Adequacy
import Idealize.ShloMosaic.Init

noncomputable section

namespace Cert.Proof

open Idealize.ShloMosaic Idealize.ShloMosaic.TcCoe Idealize.SL.Sem

/-- The two programs gather the weight rows by the same host operations: the reference's gathered array is the
    kernel's, as a function of the weight table and the indices. -/
theorem gathered_same (x1 : (⟨Cert.ReferenceIdeal.S1024x128, .f32⟩ : BufTy).Contents (Elt Ideal))
    (x2 : (⟨Cert.ReferenceIdeal.S16384, .i32⟩ : BufTy).Contents (Elt Ideal)) :
    Cert.ReferenceIdeal.Read.val_main_v6 (F := Ideal) x1 x2 = Cert.KernelIdeal.RowValue.gathered x1 x2 := rfl

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result at `w[n, d] * x[n, d, b]` of the same
    gathered weights and the same input. -/
theorem algebraic : Cert.algebraic_KernelIdeal_ReferenceIdeal := by
  intro m ρ m' ρ' _ hagree
  refine ⟨_, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v9_eq (F := Ideal) _ _ _).trans ?_
  refine (Cert.ReferenceIdeal.RefValue.result_eq _ _ _).trans ?_
  rw [(hagree c).1, (hagree c).2.1, (hagree c).2.2, gathered_same]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
